-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000000 : Shape := ⟨1, ![10000000]⟩
abbrev S4000000x2 : Shape := ⟨2, ![4000000, 2]⟩
abbrev S4000000 : Shape := ⟨1, ![4000000]⟩
abbrev S5000000 : Shape := ⟨1, ![5000000]⟩
abbrev S_ : Shape := ⟨0, ![]⟩

class Facts : Prop where
  bcast_S_S10000000 : S_.BroadcastsInDim S10000000 (![] : Fin 0 → Fin S10000000.rank)
  reducesTo_S10000000_S_d0 : S10000000.ReducesTo [0] S_
  h_S_ : 0 < S_.numel
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S10000000 .f32) (main_arg1 : IVec S4000000x2 32) (main_arg2 : FVec F S4000000 .f32) (main_arg3 : IVec S5000000 1) : IVec S_ 1 :=
  let main_v0 : FVec F S10000000 .f32 := Host.absf main_arg0
  let main_cst : FVec F S_ .f32 := constant S_ .f32 0x7F800000#32
  let main_v1 : FVec F S10000000 .f32 := broadcastInDim S10000000 ![] bcast_S_S10000000 main_cst
  let main_v2 : IVec S10000000 1 := cmpf .olt main_v0 main_v1
  let main_c : IVec S_ 1 := constantI S_ 1 1#1
  let main_v3 : IVec S_ 1 := (fun x v => Host.reduce IntOp.andi x v reducesTo_S10000000_S_d0 h_S_) main_v2 main_c
  let main_v4 : FVec F S4000000 .f32 := Host.absf main_arg2
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  main_v8
-- ==== Kernel.lean ====
abbrev S10000000 : Shape := ⟨1, ![10000000]⟩
abbrev S4000000x2 : Shape := ⟨2, ![4000000, 2]⟩
abbrev S4000000 : Shape := ⟨1, ![4000000]⟩
abbrev S5000000 : Shape := ⟨1, ![5000000]⟩
abbrev S4000000x1 : Shape := ⟨2, ![4000000, 1]⟩
abbrev S_ : Shape := ⟨0, ![]⟩
abbrev S4194304 : Shape := ⟨1, ![4194304]⟩
abbrev S4096x1024 : Shape := ⟨2, ![4096, 1024]⟩
abbrev S64x128 : Shape := ⟨2, ![64, 128]⟩
abbrev S512x1024 : Shape := ⟨2, ![512, 1024]⟩
abbrev S8x128 : Shape := ⟨2, ![8, 128]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 71
  | .vmem => 12
  | .smem => 0
  | _ => 0

abbrev bufTy : (tb : Table) → Fin (tcTables nBuf tb) → BufTy
  | .hbm, ⟨0, _⟩ => ⟨S10000000, .f32⟩
  | .hbm, ⟨1, _⟩ => ⟨S4000000x2, .i32⟩
  | .hbm, ⟨2, _⟩ => ⟨S4000000, .f32⟩
  | .hbm, ⟨3, _⟩ => ⟨S5000000, .i1⟩
  | .hbm, ⟨4, _⟩ => ⟨S5000000, .f32⟩
  | .hbm, ⟨5, _⟩ => ⟨S5000000, .f32⟩
  | .hbm, ⟨6, _⟩ => ⟨S4000000x1, .i32⟩
  | .hbm, ⟨7, _⟩ => ⟨S4000000, .i32⟩
  | .hbm, ⟨8, _⟩ => ⟨S4000000x1, .i32⟩
  | .hbm, ⟨9, _⟩ => ⟨S4000000, .i32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000, .f32⟩
  | .hbm, ⟨19, _⟩ => ⟨S_, .i32⟩
  | .hbm, ⟨20, _⟩ => ⟨S4000000, .i32⟩
  | .hbm, ⟨21, _⟩ => ⟨S4000000, .i1⟩
  | .hbm, ⟨22, _⟩ => ⟨S_, .i32⟩
  | .hbm, ⟨23, _⟩ => ⟨S4000000, .i32⟩
  | .hbm, ⟨24, _⟩ => ⟨S4000000, .i32⟩
  | .hbm, ⟨25, _⟩ => ⟨S4000000, .i32⟩
  | .hbm, ⟨26, _⟩ => ⟨S4000000x1, .i32⟩
  | .hbm, ⟨27, _⟩ => ⟨S4000000, .f32⟩
  | .hbm, ⟨28, _⟩ => ⟨S_, .i32⟩
  | .hbm, ⟨29, _⟩ => ⟨S4000000, .i32⟩
  | .hbm, ⟨30, _⟩ => ⟨S4000000, .i1⟩
  | .hbm, ⟨31, _⟩ => ⟨S_, .i32⟩
  | .hbm, ⟨32, _⟩ => ⟨S4000000, .i32⟩
  | .hbm, ⟨33, _⟩ => ⟨S4000000, .i32⟩
  | .hbm, ⟨34, _⟩ => ⟨S4000000, .i32⟩
  | .hbm, ⟨35, _⟩ => ⟨S4000000x1, .i32⟩
  | .hbm, ⟨36, _⟩ => ⟨S4000000, .f32⟩
  | .hbm, ⟨37, _⟩ => ⟨S_, .i32⟩
  | .hbm, ⟨38, _⟩ => ⟨S4000000, .i32⟩
  | .hbm, ⟨39, _⟩ => ⟨S4000000, .i1⟩
  | .hbm, ⟨40, _⟩ => ⟨S_, .i32⟩
  | .hbm, ⟨41, _⟩ => ⟨S4000000, .i32⟩
  | .hbm, ⟨42, _⟩ => ⟨S4000000, .i32⟩
  | .hbm, ⟨43, _⟩ => ⟨S4000000, .i32⟩
  | .hbm, ⟨44, _⟩ => ⟨S4000000x1, .i32⟩
  | .hbm, ⟨45, _⟩ => ⟨S4000000, .f32⟩
  | .hbm, ⟨46, _⟩ => ⟨S_, .i32⟩
  | .hbm, ⟨47, _⟩ => ⟨S_, .f32⟩
  | .hbm, ⟨48, _⟩ => ⟨S4194304, .f32⟩
  | .hbm, ⟨49, _⟩ => ⟨S4096x1024, .f32⟩
  | .hbm, ⟨50, _⟩ => ⟨S_, .i32⟩
  | .hbm, ⟨51, _⟩ => ⟨S_, .f32⟩
  | .hbm, ⟨52, _⟩ => ⟨S4194304, .f32⟩
  | .hbm, ⟨53, _⟩ => ⟨S4096x1024, .f32⟩
  | .hbm, ⟨54, _⟩ => ⟨S_, .i32⟩
  | .hbm, ⟨55, _⟩ => ⟨S_, .f32⟩
  | .hbm, ⟨56, _⟩ => ⟨S4194304, .f32⟩
  | .hbm, ⟨57, _⟩ => ⟨S4096x1024, .f32⟩
  | .hbm, ⟨58, _⟩ => ⟨S_, .i32⟩
  | .hbm, ⟨59, _⟩ => ⟨S_, .f32⟩
  | .hbm, ⟨60, _⟩ => ⟨S4194304, .f32⟩
  | .hbm, ⟨61, _⟩ => ⟨S4096x1024, .f32⟩
  | .hbm, ⟨62, _⟩ => ⟨S_, .i32⟩
  | .hbm, ⟨63, _⟩ => ⟨S_, .f32⟩
  | .hbm, ⟨64, _⟩ => ⟨S4194304, .f32⟩
  | .hbm, ⟨65, _⟩ => ⟨S4096x1024, .f32⟩
  | .hbm, ⟨66, _⟩ => ⟨S64x128, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S8x128, .f32⟩
  | _, _ => ⟨S10000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_call1_v0 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_call2_v0 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_call3_v0 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_call4_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S10000000_S5000000_0 : S10000000.Slices ![0] S5000000
  slices_S10000000_S5000000_5000000 : S10000000.Slices ![5000000] S5000000
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  pads_S4000000_S4194304_01943040 : S4000000.Pads (![0] : Fin 1 → Nat) ![194304] ![0] S4194304
  h_S_ : 0 < S_.numel
  shapeCasts_S4194304_S4096x1024 : S4194304.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x1024_S1x512x1024 : S512x1024.ShapeCasts S1x512x1024
  reduces_S1x512x1024_S1 : S1x512x1024.Reduces [1, 2] S1
  shapeCasts_S1_S1x1x1 : S1.ShapeCasts S1x1x1
  inpos_S1x1x1_p0_0_0 : ∀ a, (![0, 0, 0] : Fin 3 → Nat) a < S1x1x1.size a
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  gather_S5000000_S4000000x1_S4000000_n_0_n_n_0_1_1_wf : GatherDims.WF S5000000 S4000000x1 S4000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S64x128.size a
  hwx0_5 : ∀ i : grid0.Coords, EltTy.bits .f32 = 32 ∨ (Rect.block (s := S64x128) S8x128.size (cc0_transform_5 i) (hinb0_5 i)).WholeWords (EltTy.packing .f32)

variable [Facts₀]

def gather_S5000000_S4000000x1_S4000000_n_0_n_n_0_1_1 : GatherDims S5000000 S4000000x1 S4000000 where
  offsetDims := []
  collapsedSliceDims := [0]
  operandBatchingDims := []
  startIndicesBatchingDims := []
  startIndexMap := [0]
  indexVectorDim := 1
  sliceSizes := ![1]
  wf := gather_S5000000_S4000000x1_S4000000_n_0_n_n_0_1_1_wf

abbrev win0_0 : Pipeline.Window sig grid0 :=
  Pipeline.Window.ofSpec (Memref.whole main_v35) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v43) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v44) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000000 : Shape := ⟨1, ![10000000]⟩
abbrev S4000000x2 : Shape := ⟨2, ![4000000, 2]⟩
abbrev S4000000 : Shape := ⟨1, ![4000000]⟩
abbrev S5000000 : Shape := ⟨1, ![5000000]⟩
abbrev S_ : Shape := ⟨0, ![]⟩
abbrev S4000000x2x1 : Shape := ⟨3, ![4000000, 2, 1]⟩
abbrev S4000000x1 : Shape := ⟨2, ![4000000, 1]⟩

abbrev nBuf : Space → Nat
  | .hbm => 84
  | .vmem => 0
  | .smem => 0
  | _ => 0

abbrev bufTy : (tb : Table) → Fin (tcTables nBuf tb) → BufTy
  | .hbm, ⟨0, _⟩ => ⟨S10000000, .f32⟩
  | .hbm, ⟨1, _⟩ => ⟨S4000000x2, .i32⟩
  | .hbm, ⟨2, _⟩ => ⟨S4000000, .f32⟩
  | .hbm, ⟨3, _⟩ => ⟨S5000000, .i1⟩
  | .hbm, ⟨4, _⟩ => ⟨S5000000, .f32⟩
  | .hbm, ⟨5, _⟩ => ⟨S5000000, .f32⟩
  | .hbm, ⟨6, _⟩ => ⟨S_, .i32⟩
  | .hbm, ⟨7, _⟩ => ⟨S4000000x2, .i32⟩
  | .hbm, ⟨8, _⟩ => ⟨S4000000x2, .i1⟩
  | .hbm, ⟨9, _⟩ => ⟨S_, .i32⟩
  | .hbm, ⟨10, _⟩ => ⟨S4000000x2, .i32⟩
  | .hbm, ⟨11, _⟩ => ⟨S4000000x2, .i32⟩
  | .hbm, ⟨12, _⟩ => ⟨S4000000x2, .i32⟩
  | .hbm, ⟨13, _⟩ => ⟨S4000000x2x1, .i32⟩
  | .hbm, ⟨14, _⟩ => ⟨S4000000x2, .f32⟩
  | .hbm, ⟨15, _⟩ => ⟨S_, .i32⟩
  | .hbm, ⟨16, _⟩ => ⟨S4000000x2, .i32⟩
  | .hbm, ⟨17, _⟩ => ⟨S4000000x2, .i1⟩
  | .hbm, ⟨18, _⟩ => ⟨S_, .i32⟩
  | .hbm, ⟨19, _⟩ => ⟨S4000000x2, .i32⟩
  | .hbm, ⟨20, _⟩ => ⟨S4000000x2, .i32⟩
  | .hbm, ⟨21, _⟩ => ⟨S4000000x2, .i32⟩
  | .hbm, ⟨22, _⟩ => ⟨S4000000x2x1, .i32⟩
  | .hbm, ⟨23, _⟩ => ⟨S4000000x2, .f32⟩
  | .hbm, ⟨24, _⟩ => ⟨S_, .f32⟩
  | .hbm, ⟨25, _⟩ => ⟨S4000000x2, .f32⟩
  | .hbm, ⟨26, _⟩ => ⟨S4000000x2, .f32⟩
  | .hbm, ⟨27, _⟩ => ⟨S_, .f32⟩
  | .hbm, ⟨28, _⟩ => ⟨S4000000, .f32⟩
  | .hbm, ⟨29, _⟩ => ⟨S4000000x1, .f32⟩
  | .hbm, ⟨30, _⟩ => ⟨S_, .f32⟩
  | .hbm, ⟨31, _⟩ => ⟨S4000000, .f32⟩
  | .hbm, ⟨32, _⟩ => ⟨S4000000x1, .f32⟩
  | .hbm, ⟨33, _⟩ => ⟨S4000000x2, .f32⟩
  | .hbm, ⟨34, _⟩ => ⟨S4000000x2, .f32⟩
  | .hbm, ⟨35, _⟩ => ⟨S4000000x2, .f32⟩
  | .hbm, ⟨36, _⟩ => ⟨S4000000x2, .f32⟩
  | .hbm, ⟨37, _⟩ => ⟨S4000000x2, .f32⟩
  | .hbm, ⟨38, _⟩ => ⟨S4000000x2, .f32⟩
  | .hbm, ⟨39, _⟩ => ⟨S4000000x2, .f32⟩
  | .hbm, ⟨40, _⟩ => ⟨S_, .f32⟩
  | .hbm, ⟨41, _⟩ => ⟨S4000000, .f32⟩
  | .hbm, ⟨42, _⟩ => ⟨S_, .f32⟩
  | .hbm, ⟨43, _⟩ => ⟨S4000000, .f32⟩
  | .hbm, ⟨44, _⟩ => ⟨S4000000, .f32⟩
  | .hbm, ⟨45, _⟩ => ⟨S4000000x2, .f32⟩
  | .hbm, ⟨46, _⟩ => ⟨S_, .f32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S_, .f32⟩
  | .hbm, ⟨53, _⟩ => ⟨S4000000x2, .f32⟩
  | .hbm, ⟨54, _⟩ => ⟨S4000000x2, .f32⟩
  | .hbm, ⟨55, _⟩ => ⟨S_, .f32⟩
  | .hbm, ⟨56, _⟩ => ⟨S4000000, .f32⟩
  | .hbm, ⟨57, _⟩ => ⟨S4000000x1, .f32⟩
  | .hbm, ⟨58, _⟩ => ⟨S_, .f32⟩
  | .hbm, ⟨59, _⟩ => ⟨S4000000, .f32⟩
  | .hbm, ⟨60, _⟩ => ⟨S4000000x1, .f32⟩
  | .hbm, ⟨61, _⟩ => ⟨S4000000x2, .f32⟩
  | .hbm, ⟨62, _⟩ => ⟨S4000000x2, .f32⟩
  | .hbm, ⟨63, _⟩ => ⟨S4000000x2, .f32⟩
  | .hbm, ⟨64, _⟩ => ⟨S4000000x2, .f32⟩
  | .hbm, ⟨65, _⟩ => ⟨S4000000x2, .f32⟩
  | .hbm, ⟨66, _⟩ => ⟨S4000000x2, .f32⟩
  | .hbm, ⟨67, _⟩ => ⟨S4000000x2, .f32⟩
  | .hbm, ⟨68, _⟩ => ⟨S_, .f32⟩
  | .hbm, ⟨69, _⟩ => ⟨S4000000, .f32⟩
  | .hbm, ⟨70, _⟩ => ⟨S_, .f32⟩
  | .hbm, ⟨71, _⟩ => ⟨S4000000, .f32⟩
  | .hbm, ⟨72, _⟩ => ⟨S4000000, .f32⟩
  | .hbm, ⟨73, _⟩ => ⟨S4000000x2, .f32⟩
  | .hbm, ⟨74, _⟩ => ⟨S_, .f32⟩
  | .hbm, ⟨75, _⟩ => ⟨S4000000, .f32⟩
  | .hbm, ⟨76, _⟩ => ⟨S_, .f32⟩
  | .hbm, ⟨77, _⟩ => ⟨S4000000, .f32⟩
  | .hbm, ⟨78, _⟩ => ⟨S4000000, .f32⟩
  | .hbm, ⟨79, _⟩ => ⟨S4000000, .f32⟩
  | .hbm, ⟨80, _⟩ => ⟨S4000000, .f32⟩
  | .hbm, ⟨81, _⟩ => ⟨S4000000, .f32⟩
  | .hbm, ⟨82, _⟩ => ⟨S_, .f32⟩
  | .hbm, ⟨83, _⟩ => ⟨S_, .f32⟩
  | _, _ => ⟨S10000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S10000000_S5000000_0 : S10000000.Slices ![0] S5000000
  slices_S10000000_S5000000_5000000 : S10000000.Slices ![5000000] S5000000
  bcast_S_S4000000x2 : S_.BroadcastsInDim S4000000x2 (![] : Fin 0 → Fin S4000000x2.rank)
  bcast_S4000000x2_S4000000x2x1_0_1 : S4000000x2.BroadcastsInDim S4000000x2x1 (![0, 1] : Fin 2 → Fin S4000000x2x1.rank)
  reducesTo_S4000000x2_S4000000_d1 : S4000000x2.ReducesTo [1] S4000000
  h_S_ : 0 < S_.numel
  bcast_S4000000_S4000000x1_0 : S4000000.BroadcastsInDim S4000000x1 (![0] : Fin 1 → Fin S4000000x1.rank)
  bcast_S4000000x1_S4000000x2_0_1 : S4000000x1.BroadcastsInDim S4000000x2 (![0, 1] : Fin 2 → Fin S4000000x2.rank)
  reducesTo_S4000000_S_d0 : S4000000.ReducesTo [0] S_
  gather_S5000000_S4000000x2x1_S4000000x2_n_0_n_n_0_2_1_wf : GatherDims.WF S5000000 S4000000x2x1 S4000000x2 [] [0] [] [0] [] 2 ![1]

variable [Facts₀]

def gather_S5000000_S4000000x2x1_S4000000x2_n_0_n_n_0_2_1 : GatherDims S5000000 S4000000x2x1 S4000000x2 where
  offsetDims := []
  collapsedSliceDims := [0]
  operandBatchingDims := []
  startIndicesBatchingDims := []
  startIndexMap := [0]
  indexVectorDim := 2
  sliceSizes := ![1]
  wf := gather_S5000000_S4000000x2x1_S4000000x2_n_0_n_n_0_2_1_wf

class Facts : Prop extends Facts₀ where

variable [Facts]
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.Spec.lean ====
/-
  The quantity both programs compute, and the arithmetic that joins their two ways of summing it.

  A net joins two pins. With the pins' x coordinates a, b and the sharpness g, its smooth extent on that axis is the
  exp-weighted average that leans to the larger coordinate minus the one that leans to the smaller:

      spread g a b = (a·e^(ag - M) + b·e^(bg - M)) / (e^(ag - M) + e^(bg - M))
                   - (a·e^(m - ag) + b·e^(m - bg)) / (e^(m - ag) + e^(m - bg)),     M = max(ag, bg), m = min(ag, bg).

  A net's cost is its weight times the sum of its spreads on the two axes, and the result is the sum of the costs
  over all nets. A pin number is first wrapped (a negative one counts from the end) and then clamped into the pin
  range; the x coordinates are the first half of the position array and the y coordinates the second half.

  One program sums the nets in one pass. The other lays the per-net data out as 4096 rows of 1024 after extending it
  with 194304 entries of weight zero, sums each band of 512 rows, writes every band's sum 1024 times, adds up all
  those copies and divides by 1024. Over the extended reals addition is commutative and associative, a cost with
  weight zero is zero, and 1024 copies of S divided by 1024 is S (also when S is infinite): that is all the two
  ways of summing need, and no finiteness of the data enters.
-/
import Idealize.ShloMosaic.PureOps.Ideal
import Idealize.ShloMosaic.Lib.ValueIdx
import proofs.«173383_j90091234001231_2_alg».proof.Proof.LibTileSums

noncomputable section

namespace Cert.Wirelength

open Idealize.ShloMosaic Idealize.ShloMosaic.ValueIdx

/-! ## One net -/

/-- The smooth extent of a pair of coordinates: the average weighted towards the larger minus the average weighted
    towards the smaller. -/
def spread (g a b : EReal) : EReal :=
  Ideal.div (a * Ideal.exp (a * g - max (a * g) (b * g)) + b * Ideal.exp (b * g - max (a * g) (b * g)))
      (Ideal.exp (a * g - max (a * g) (b * g)) + Ideal.exp (b * g - max (a * g) (b * g)))
    - Ideal.div (a * Ideal.exp (min (a * g) (b * g) - a * g) + b * Ideal.exp (min (a * g) (b * g) - b * g))
      (Ideal.exp (min (a * g) (b * g) - a * g) + Ideal.exp (min (a * g) (b * g) - b * g))

/-- A net's cost: its weight times the sum of its two spreads. -/
def net (g x0 x1 y0 y1 w : EReal) : EReal := w * (spread g x0 x1 + spread g y0 y1)

/-- A net of weight zero costs nothing, whatever its coordinates. -/
theorem net_zero_weight (g x0 x1 y0 y1 : EReal) : net g x0 x1 y0 y1 0 = 0 := zero_mul _

/-! ## Pins -/

/-- A pin number counted from the end when negative. -/
def wrap (v : BitVec 32) : BitVec 32 := Scalar.select (IntOp.cmpi .slt v 0#32) (IntOp.addi v 5000000#32) v

/-- The pin a (wrapped) number addresses: read signed and clamped into the pin range. -/
def pin (v : BitVec 32) : Fin 5000000 := ⟨min (wrap v).toInt.toNat (5000000 - 1), by omega⟩

/-- Where a pin's x coordinate sits in the position array … -/
def xAt (p : Fin 5000000) : (⟨1, ![10000000]⟩ : Shape).Idx := ix1 ⟨p.val, by omega⟩
/-- … and where its y coordinate sits. -/
def yAt (p : Fin 5000000) : (⟨1, ![10000000]⟩ : Shape).Idx := ix1 ⟨5000000 + p.val, by omega⟩

/-! ## The result -/

/-- Net `t`'s cost from the three argument arrays. -/
def cost (g : EReal) (pos : (⟨1, ![10000000]⟩ : Shape).Idx → EReal) (pins : (⟨2, ![4000000, 2]⟩ : Shape).Idx → BitVec 32)
    (wts : (⟨1, ![4000000]⟩ : Shape).Idx → EReal) (t : Fin 4000000) : EReal :=
  net g (pos (xAt (pin (pins (ix2 t (0 : Fin 2)))))) (pos (xAt (pin (pins (ix2 t (1 : Fin 2))))))
    (pos (yAt (pin (pins (ix2 t (0 : Fin 2)))))) (pos (yAt (pin (pins (ix2 t (1 : Fin 2)))))) (wts (ix1 t))

/-- The total over all nets. -/
def total (g : EReal) (pos : (⟨1, ![10000000]⟩ : Shape).Idx → EReal) (pins : (⟨2, ![4000000, 2]⟩ : Shape).Idx → BitVec 32)
    (wts : (⟨1, ![4000000]⟩ : Shape).Idx → EReal) : EReal :=
  ∑ t : Fin 4000000, cost g pos pins wts t

/-! ## Summing by bands of a zero-extended layout -/

/-- A sum over 4194304 positions of a summand that vanishes from position 4000000 on is the sum over the first
    4000000. -/
theorem sum_extended {M : Type*} [AddCommMonoid M] (q : ℕ → M) (hq : ∀ n, 4000000 ≤ n → q n = 0) :
    ∑ n : Fin 4194304, q n.val = ∑ n : Fin 4000000, q n.val := by
  rw [Fin.sum_univ_eq_sum_range (fun n => q n) 4194304, Fin.sum_univ_eq_sum_range (fun n => q n) 4000000]
  refine (Finset.sum_subset (Finset.range_subset_range.mpr (by norm_num)) fun n _ hn => ?_).symm
  exact hq n (by simpa using hn)

/-- Eight bands of 512 rows of 1024: summing band by band, row by row, is summing all positions in order; with the
    zero tail dropped it is the sum over the first 4000000. -/
theorem sum_bands {M : Type*} [AddCommMonoid M] (q : ℕ → M) (hq : ∀ n, 4000000 ≤ n → q n = 0) :
    ∑ t : Fin 8, ∑ r : Fin 512, ∑ c : Fin 1024, q ((512 * t.val + r.val) * 1024 + c.val) = ∑ n : Fin 4000000, q n.val := by
  rw [← sum_extended q hq]
  rw [show (4194304 : ℕ) = 4096 * 1024 from rfl, Cert.LibTileSums.sum_blocks 4096 1024 q]
  rw [show (4096 : ℕ) = 8 * 512 from rfl,
    Cert.LibTileSums.sum_blocks 8 512 (fun R => ∑ c : Fin 1024, q (1024 * R + c.val))]
  refine Finset.sum_congr rfl fun t _ => Finset.sum_congr rfl fun r _ => Finset.sum_congr rfl fun c _ => ?_
  rw [Nat.mul_comm 1024]

/-! ## 1024 copies, divided by 1024 -/

/-- `n` equal summands add up to the `n`-fold multiple. -/
theorem sum_copies {M : Type*} [AddCommMonoid M] (n : ℕ) (x : M) : ∑ _i : Fin n, x = n • x := by
  rw [Finset.sum_const, Finset.card_univ, Fintype.card_fin]

/-- 1024 copies of an extended real divided by the real 1024 give it back, at the infinities too. -/
theorem copies_div (S : EReal) : Ideal.div ((1024 : ℕ) • S) ((1024 : ℝ) : EReal) = S := by
  rw [Ideal.div_coe (by norm_num), EReal.nsmul_eq_mul]
  have h : ((1024 : ℕ) : EReal) = ((1024 : ℝ) : EReal) := by norm_cast
  rw [h, mul_comm ((1024 : ℝ) : EReal) S, mul_assoc, ← EReal.coe_mul]
  norm_num

/-- A 64 x 128 table whose rows 8t … 8t+7 all hold band `t`'s sum: the table's total, from zero, divided by 1024 is the
    sum of the eight band sums. -/
theorem table_total (P : ℕ → EReal) :
    Ideal.div (0 + ∑ a : Fin 64, ∑ _b : Fin 128, P (a.val / 8)) ((1024 : ℝ) : EReal) = ∑ t : Fin 8, P t.val := by
  rw [zero_add, show (64 : ℕ) = 8 * 8 from rfl,
    Cert.LibTileSums.sum_blocks 8 8 (fun a => ∑ _b : Fin 128, P (a / 8))]
  have hrow : ∀ (t : Fin 8) (r : Fin 8), (8 * t.val + r.val) / 8 = t.val := fun t r => by omega
  simp only [hrow, sum_copies, ← Finset.sum_nsmul]
  rw [← copies_div (∑ t : Fin 8, P t.val)]
  congr 1
  rw [Finset.smul_sum]
  refine Finset.sum_congr rfl fun t _ => ?_
  rw [← mul_nsmul']

end Cert.Wirelength

end
-- ==== Proof.BandSum.lean ====
/-
  What one grid point leaves in its output block: every entry of the 8 x 128 block is the sum, over the 512 x 1024
  positions of the point's input blocks, of the net cost at that position.

  The body forms the cost position by position (products, max, min, exp, quotients: all pointwise), views the
  512 x 1024 result as 1 x 512 x 1024, adds it up over the two long axes into a single number, and splats that number
  over the output block. A reduction into a one-entry result is the sum over every position of its operand, and
  viewing an array in another shape only renames its positions, so the sum is the sum over the 512 x 1024 positions.
-/
import proofs.«173383_j90091234001231_2_alg».proof.Proof.Gen.KernelIdeal.Frame
import proofs.«173383_j90091234001231_2_alg».proof.Proof.Spec
import Idealize.ShloMosaic.Lib.Pipeline.Value
import Idealize.ShloMosaic.PureOps.Ideal.Laws

noncomputable section

namespace Cert.KernelIdeal.BandSum

open Cert.KernelIdeal Cert.KernelIdeal.Gen Idealize.ShloMosaic Idealize.ShloMosaic.ValueIdx Cert.Wirelength

/-- The sharpness both programs multiply the coordinates by: the number the word 0x40000000 denotes. -/
abbrev sharp : EReal := Ideal.ofBits .f32 0x40000000#32

theorem zero_offsets : (![0, 0] : Fin 2 → Nat) = fun _ => 0 := funext fun a => by fin_cases a <;> rfl

/-- The pointwise part of the body at one position of the blocks: the net cost there. -/
theorem cost_at (x0 x1 x2 x3 x4 : Vec Ideal S512x1024 .f32) (i : S512x1024.Idx) :
    mulf (shapeCast S512x1024 x4 shapeCasts_S512x1024_S512x1024)
      (addf (k0_pay2 x0 x1)
        (subf (divf (addf (mulf (k0_pay3 x2) (k0_pay9 x2 x3)) (mulf (k0_pay4 x3) (k0_pay10 x2 x3))) (addf (k0_pay9 x2 x3) (k0_pay10 x2 x3)))
          (divf (addf (mulf (k0_pay3 x2) (k0_pay11 x2 x3)) (mulf (k0_pay4 x3) (k0_pay12 x2 x3))) (addf (k0_pay11 x2 x3) (k0_pay12 x2 x3))))) i
      = net sharp (x0 i) (x1 i) (x2 i) (x3 i) (x4 i) := by
  unfold k0_pay2 k0_pay9 k0_pay10 k0_pay11 k0_pay12 k0_pay7 k0_pay8 k0_pay5 k0_pay6 k0_pay3 k0_pay4
  simp only [shapeCast_self]
  rfl

/-- Viewing an array in another shape only renames its positions: the total is the same. -/
theorem sum_shapeCast {s t : Shape} (v : s.Idx → EReal) (h : s.ShapeCasts t) :
    ∑ j : t.Idx, shapeCast t v h j = ∑ i : s.Idx, v i :=
  Equiv.sum_comp (Shape.reshapeEquiv h) v

/-- A 512 x 1024 array viewed as 1 x 512 x 1024, added up over its two long axes into one number, and that number
    splat over an 8 x 128 block: every entry of the block is the array's total. -/
theorem splat_total (W : FVec Ideal S512x1024 .f32) (hφ : FKind.Formats .f32)
    (hacc : (0x00000000#32 : BitVec 32) = FKind.add.neutral .f32 hφ) (y : S8x128.Idx) :
    broadcast S8x128 (extractAt ![0, 0, 0]
        (shapeCast S1x1x1 (multiReduction .add [1, 2] S1 (shapeCast S1x512x1024 W shapeCasts_S512x1024_S1x512x1024)
          0x00000000#32 reduces_S1x512x1024_S1 hφ hacc) shapeCasts_S1_S1x1x1) inpos_S1x1x1_p0_0_0) y
      = ∑ i : S512x1024.Idx, W i := by
  show multiReduction .add [1, 2] S1 (shapeCast S1x512x1024 W shapeCasts_S512x1024_S1x512x1024) 0x00000000#32
    reduces_S1x512x1024_S1 hφ hacc _ = _
  rw [Ideal.multiReduction_add_total _ _ _ (fun b => by obtain rfl : b = 0 := Subsingleton.elim _ _; rfl)]
  exact sum_shapeCast W _

/-- Every entry of the block a point writes is the sum of the net costs over the positions of its input blocks. -/
theorem block_eq (x0 x1 x2 x3 x4 : Vec Ideal S512x1024 .f32) (y : S8x128.Idx) :
    out0_5 (F := Ideal) x0 x1 x2 x3 x4 y = ∑ i : S512x1024.Idx, net sharp (x0 i) (x1 i) (x2 i) (x3 i) (x4 i) := by
  unfold out0_5
  rw [View.canon_unit_zero zero_offsets]
  simp only [View.ld_unit_zero (S := S512x1024) zero_offsets]
  unfold k0_pay1
  refine (splat_total _ _ _ y).trans ?_
  exact Finset.sum_congr rfl fun i _ => cost_at x0 x1 x2 x3 x4 i

end Cert.KernelIdeal.BandSum

end
-- ==== Proof.LibGatherColumn.lean ====
/-
  Looking entries of a flat array up at a column of indices, read at one position.

  `x[idx]` for a flat array `x : [N]` and an integer vector `idx : [R]` is lowered to a gather whose start indices are the
  vector written as a column `[R, 1]` (the index vector lies along axis 1), with the operand's one axis collapsed and a
  slice of one entry. Result entry `t` is `x` at the start index `idx[t, 0]`, read as a signed integer and clamped
  into `[0, N - 1]`, as the gather clamps every start index. This is the rank-1 companion of the library's reading of a
  gather at a rank-2 array of start indices (`ValueIdx.gather_take_apply`), proved the same way.
-/
import Idealize.ShloMosaic.Lib.ValueIdx

noncomputable section

namespace Cert.LibGatherColumn

open Idealize.ShloMosaic Idealize.ShloMosaic.ValueIdx

variable {α : Type}

/-- The dimension numbers of that gather for an operand `[N]`, start indices `[R, 1]` and a result `[R]`. -/
abbrev colDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The start-indices position `[t, 0]` of result position `t`. -/
abbrev colIdx {R : Nat} (y : (⟨1, ![R]⟩ : Shape).Idx) : (⟨2, ![R, 1]⟩ : Shape).Idx :=
  fun a => match a with | ⟨0, _⟩ => ⟨(y 0).val, (y 0).isLt⟩ | ⟨1, _⟩ => ⟨0, Nat.one_pos⟩

/-- The gather read at `t`: the operand at the start index `idx[t, 0]`, read signed and clamped into `[0, N - 1]`. -/
theorem gather_col_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (colDims N R wf) x idx y = x (ix1 ⟨min (idx (colIdx y)).toInt.toNat (N - 1), by omega⟩) := by
  unfold Host.gather
  congr 1
  funext a
  obtain rfl : a = 0 := Subsingleton.elim _ _
  refine Fin.ext ?_
  show (colDims N R wf).start y idx 0 + (colDims N R wf).batchCoord y 0 + (colDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx y ⟨List.idxOf (0 : Fin 1) (colDims N R wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

end Cert.LibGatherColumn

end
-- ==== Proof.Layout.lean ====
/-
  The host operations that prepare the grid's five arrays, read at one position.

  Each pin column of the net table is wrapped and looked up in one half of the position array (x in the first half, y in
  the second), giving four vectors of 4000000 coordinates; the weights are the fifth vector. Each vector is extended
  by 194304 entries equal to the integer zero converted to a float, and the 4194304 entries are laid out as 4096 rows
  of 1024. So row R, column c of a laid-out array holds entry 1024 R + c of its vector when that is below 4000000, and
  zero otherwise; and entry t of a looked-up vector is the half's entry at the pin that column's number addresses.
-/
import proofs.«173383_j90091234001231_2_alg».proof.Proof.Gen.KernelIdeal
import proofs.«173383_j90091234001231_2_alg».proof.Proof.Spec
import proofs.«173383_j90091234001231_2_alg».proof.Proof.LibGatherColumn
import Idealize.ShloMosaic.Lib.Pipeline.Value
import Idealize.ShloMosaic.Lib.KernelVsHost

noncomputable section

namespace Cert.KernelIdeal.Layout

open Cert.KernelIdeal Cert.KernelIdeal.Gen Idealize.ShloMosaic Idealize.ShloMosaic.ValueIdx Cert.Wirelength Cert.LibGatherColumn

variable {F : FTy → Type} [FloatOps F]

/-! ## The host operations' terms -/

/-- Pin column 0 of the net table as a vector … -/
def pinCol0 (pins : IVec S4000000x2 32) : IVec S4000000 32 :=
  shapeCast S4000000 (extractStridedSlice S4000000x1 ![0, 0] pins slices_S4000000x2_S4000000x1_0_0) shapeCasts_S4000000x1_S4000000
/-- … and pin column 1. -/
def pinCol1 (pins : IVec S4000000x2 32) : IVec S4000000 32 :=
  shapeCast S4000000 (extractStridedSlice S4000000x1 ![0, 1] pins slices_S4000000x2_S4000000x1_0_1) shapeCasts_S4000000x1_S4000000

/-- A vector of pin numbers with the negative ones counted from the end. -/
def wrapped (v : IVec S4000000 32) : IVec S4000000 32 :=
  select (cmpi .slt v (broadcastInDim S4000000 ![] bcast_S_S4000000 (constantI S_ 32 0#32)))
    (addi v (broadcastInDim S4000000 ![] bcast_S_S4000000 (constantI S_ 32 5000000#32))) v

/-- The coordinates of a vector of pins, looked up in one half of the position array. -/
def looked (half : FVec F S5000000 .f32) (v : IVec S4000000 32) : FVec F S4000000 .f32 :=
  Host.gather gather_S5000000_S4000000x1_S4000000_n_0_n_n_0_1_1 half
    (broadcastInDim S4000000x1 ![0] bcast_S4000000_S4000000x1_0 (wrapped v))

/-- A vector extended by 194304 converted integer zeros and laid out as 4096 rows of 1024. -/
def laid (v : FVec F S4000000 .f32) : FVec F S4096x1024 .f32 :=
  shapeCast S4096x1024
    (pad S4194304 ![0] ![194304] ![0] v (sitofp (F := F) .f32 (constantI S_ 32 0#32)) pads_S4000000_S4194304_01943040 h_S_)
    shapeCasts_S4194304_S4096x1024

/-- The x coordinates: the first half of the position array … -/
def xHalf (pos : FVec F S10000000 .f32) : FVec F S5000000 .f32 := extractStridedSlice S5000000 ![0] pos slices_S10000000_S5000000_0
/-- … and the y coordinates: the second half. -/
def yHalf (pos : FVec F S10000000 .f32) : FVec F S5000000 .f32 := extractStridedSlice S5000000 ![5000000] pos slices_S10000000_S5000000_5000000

/-! ## Read at a position -/

/-- Entry `t` of pin column 0 is the table's entry `(t, 0)` … -/
theorem pinCol0_apply (pins : IVec S4000000x2 32) (t : Fin 4000000) : pinCol0 pins (ix1 t) = pins (ix2 t (0 : Fin 2)) := by
  unfold pinCol0
  rw [shapeCast_apply _ shapeCasts_S4000000x1_S4000000 (ix1 t) (ix2 t (0 : Fin 1)) (by
    rw [Shape.rowMajor_val_two, Shape.rowMajor_val_one]; show t.val * 1 + 0 = t.val; omega)]
  exact extractStridedSlice_apply ![0, 0] pins slices_S4000000x2_S4000000x1_0_0 (ix2 t (0 : Fin 1)) (ix2 t (0 : Fin 2)) (fun a => by
    match a with
    | ⟨0, _⟩ => show t.val = 0 + t.val; omega
    | ⟨1, _⟩ => show (0 : ℕ) = 0 + 0; rfl)

/-- … and of pin column 1 the entry `(t, 1)`. -/
theorem pinCol1_apply (pins : IVec S4000000x2 32) (t : Fin 4000000) : pinCol1 pins (ix1 t) = pins (ix2 t (1 : Fin 2)) := by
  unfold pinCol1
  rw [shapeCast_apply _ shapeCasts_S4000000x1_S4000000 (ix1 t) (ix2 t (0 : Fin 1)) (by
    rw [Shape.rowMajor_val_two, Shape.rowMajor_val_one]; show t.val * 1 + 0 = t.val; omega)]
  exact extractStridedSlice_apply ![0, 1] pins slices_S4000000x2_S4000000x1_0_1 (ix2 t (0 : Fin 1)) (ix2 t (1 : Fin 2)) (fun a => by
    match a with
    | ⟨0, _⟩ => show t.val = 0 + t.val; omega
    | ⟨1, _⟩ => show (1 : ℕ) = 1 + 0; rfl)

/-- Pin `p`'s x coordinate sits at `xAt p` of the position array … -/
theorem xHalf_apply (pos : FVec F S10000000 .f32) (p : Fin 5000000) : xHalf pos (ix1 p) = pos (xAt p) := by
  unfold xHalf
  exact extractStridedSlice_apply ![0] pos slices_S10000000_S5000000_0 (ix1 p) (xAt p) (fun a => by
    obtain rfl : a = 0 := Subsingleton.elim _ _
    show p.val = 0 + p.val; omega)

/-- … and its y coordinate at `yAt p`. -/
theorem yHalf_apply (pos : FVec F S10000000 .f32) (p : Fin 5000000) : yHalf pos (ix1 p) = pos (yAt p) := by
  unfold yHalf
  exact extractStridedSlice_apply ![5000000] pos slices_S10000000_S5000000_5000000 (ix1 p) (yAt p) (fun a => by
    obtain rfl : a = 0 := Subsingleton.elim _ _
    show 5000000 + p.val = 5000000 + p.val; rfl)

/-- Entry `t` of a looked-up vector is the half's entry at the pin that number `t` addresses. -/
theorem looked_apply (half : FVec F S5000000 .f32) (v : IVec S4000000 32) (t : Fin 4000000) :
    looked half v (ix1 t) = half (ix1 (pin (v (ix1 t)))) := by
  unfold looked gather_S5000000_S4000000x1_S4000000_n_0_n_n_0_1_1
  refine (gather_col_apply (N := 5000000) (R := 4000000) (by norm_num) gather_S5000000_S4000000x1_S4000000_n_0_n_n_0_1_1_wf half _ (ix1 t)).trans ?_
  refine congrArg half (congrArg ix1 (Fin.ext ?_))
  show min (broadcastInDim S4000000x1 ![0] bcast_S4000000_S4000000x1_0 (wrapped v) (colIdx (ix1 t))).toInt.toNat (5000000 - 1)
    = min (wrap (v (ix1 t))).toInt.toNat (5000000 - 1)
  rw [broadcastInDim_apply _ bcast_S4000000_S4000000x1_0 (wrapped v) (colIdx (ix1 t)) (ix1 t) (fun a => by
    obtain rfl : a = 0 := Subsingleton.elim _ _
    show t.val = if (4000000 : ℕ) = 1 then 0 else t.val
    rw [if_neg (by decide)])]
  rfl

/-- Row `R`, column `c` of a laid-out vector: its entry `1024 R + c` when that is one of the 4000000, zero in the
    extension. -/
theorem laid_apply (v : FVec Ideal S4000000 .f32) (R : Fin 4096) (c : Fin 1024) :
    laid (F := Ideal) v (ix2 R c) = if h : R.val * 1024 + c.val < 4000000 then v (ix1 ⟨R.val * 1024 + c.val, h⟩) else 0 := by
  unfold laid
  have hn : R.val * 1024 + c.val < 4194304 := by omega
  rw [shapeCast_apply _ shapeCasts_S4194304_S4096x1024 (ix2 R c) (ix1 ⟨R.val * 1024 + c.val, hn⟩) (by
    rw [Shape.rowMajor_val_one, Shape.rowMajor_val_two]; rfl)]
  split
  · rename_i h
    exact pad_apply_of_inside _ _ _ v _ pads_S4000000_S4194304_01943040 h_S_ _ (ix1 ⟨_, h⟩) (fun a => by
      obtain rfl : a = 0 := Subsingleton.elim _ _
      show R.val * 1024 + c.val = 0 + (R.val * 1024 + c.val) * (0 + 1); omega)
  · rename_i h
    rw [pad_apply_of_not_inside _ _ _ v _ pads_S4000000_S4194304_01943040 h_S_ _ 0 (by
      show ¬(0 ≤ R.val * 1024 + c.val ∧ (R.val * 1024 + c.val - 0) % (0 + 1) = 0 ∧ (R.val * 1024 + c.val - 0) / (0 + 1) < 4000000)
      omega)]
    show (((0#32 : BitVec 32).toInt : ℝ) : EReal) = 0
    simp

end Cert.KernelIdeal.Layout

end
-- ==== Proof.Staged.lean ====
/-
  The five arrays the grid reads, as the host operations before it leave them: the x coordinates of every net's first and
  second pin, the y coordinates of the first and second pin, and the weights, each extended with zeros and laid out as
  4096 rows of 1024 (the operations themselves are read at a position in the module on the layout).
-/
import proofs.«173383_j90091234001231_2_alg».proof.Proof.Gen.KernelIdeal.Frame
import proofs.«173383_j90091234001231_2_alg».proof.Proof.Layout
import Idealize.ShloMosaic.Lib.StableHlo.Run

noncomputable section

namespace Cert.KernelIdeal.Staged

open Cert.KernelIdeal Cert.KernelIdeal.Gen Cert.KernelIdeal.Layout Idealize.ShloMosaic Idealize.ShloMosaic.TcCoe
open Idealize.SL.Sem Idealize.ShloMosaic.StableHlo

variable {F : FTy → Type} [FloatOps F]
variable (m : (ℓ : Loc nD τ sig) → Buf (Elt F) ℓ)

set_option maxRecDepth 16384 in
set_option maxHeartbeats 8000000 in
/-- Window 0's array: the x coordinates of every net's first pin. -/
theorem staged0 (c : Dev nD) : (V m c main_v35 : S4096x1024.Idx → Elt F .f32)
    = laid (looked (xHalf (m ((c : Thread nD τ).loc main_arg0))) (pinCol0 (m ((c : Thread nD τ).loc main_arg1)))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results_simp
  rfl

set_option maxRecDepth 16384 in
set_option maxHeartbeats 8000000 in
/-- Window 1's array: the x coordinates of every net's second pin. -/
theorem staged1 (c : Dev nD) : (V m c main_v37 : S4096x1024.Idx → Elt F .f32)
    = laid (looked (xHalf (m ((c : Thread nD τ).loc main_arg0))) (pinCol1 (m ((c : Thread nD τ).loc main_arg1)))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results_simp
  rfl

set_option maxRecDepth 16384 in
set_option maxHeartbeats 8000000 in
/-- Window 2's array: the y coordinates of every net's first pin. -/
theorem staged2 (c : Dev nD) : (V m c main_v39 : S4096x1024.Idx → Elt F .f32)
    = laid (looked (yHalf (m ((c : Thread nD τ).loc main_arg0))) (pinCol0 (m ((c : Thread nD τ).loc main_arg1)))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results_simp
  rfl

set_option maxRecDepth 16384 in
set_option maxHeartbeats 8000000 in
/-- Window 3's array: the y coordinates of every net's second pin. -/
theorem staged3 (c : Dev nD) : (V m c main_v41 : S4096x1024.Idx → Elt F .f32)
    = laid (looked (yHalf (m ((c : Thread nD τ).loc main_arg0))) (pinCol1 (m ((c : Thread nD τ).loc main_arg1)))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results_simp
  rfl

set_option maxRecDepth 16384 in
set_option maxHeartbeats 8000000 in
/-- Window 4's array: the weights. -/
theorem staged4 (c : Dev nD) : (V m c main_v43 : S4096x1024.Idx → Elt F .f32)
    = laid (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results_simp
  rfl

end Cert.KernelIdeal.Staged

end
-- ==== Proof.Cells.lean ====
/-
  One cell of the staged layout costs what its net costs.

  At row R, column c the five staged arrays hold the four coordinates and the weight of net 1024 R + c when that number
  is below 4000000, and five zeros otherwise. So the cost formed from the five entries is that net's cost in the first
  case and, the weight being zero, zero in the second: the cost as a function of the position number 1024 R + c.
-/
import proofs.«173383_j90091234001231_2_alg».proof.Proof.Layout
import proofs.«173383_j90091234001231_2_alg».proof.Proof.Spec

noncomputable section

namespace Cert.KernelIdeal.Cells

open Cert.KernelIdeal Cert.KernelIdeal.Layout Idealize.ShloMosaic Idealize.ShloMosaic.ValueIdx Cert.Wirelength

/-- The cost at position number `n` of the extended layout: net `n`'s cost below 4000000, zero in the extension. -/
def costAt (g : EReal) (pos : FVec Ideal S10000000 .f32) (pins : IVec S4000000x2 32) (wts : FVec Ideal S4000000 .f32) (n : ℕ) : EReal :=
  if h : n < 4000000 then cost g pos pins wts ⟨n, h⟩ else 0

/-- In the extension the cost is zero. -/
theorem costAt_extension (g : EReal) (pos : FVec Ideal S10000000 .f32) (pins : IVec S4000000x2 32) (wts : FVec Ideal S4000000 .f32)
    (n : ℕ) (hn : 4000000 ≤ n) : costAt g pos pins wts n = 0 := by
  unfold costAt; rw [dif_neg (by omega)]

/-- Below 4000000 it is the net's cost. -/
theorem costAt_net (g : EReal) (pos : FVec Ideal S10000000 .f32) (pins : IVec S4000000x2 32) (wts : FVec Ideal S4000000 .f32)
    (t : Fin 4000000) : costAt g pos pins wts t.val = cost g pos pins wts t := by
  unfold costAt; rw [dif_pos t.isLt]

/-- The cost formed from the five staged entries at row `R`, column `c` is the cost at position number `1024 R + c`. -/
theorem cell_cost (g : EReal) (pos : FVec Ideal S10000000 .f32) (pins : IVec S4000000x2 32) (wts : FVec Ideal S4000000 .f32)
    (R : Fin 4096) (c : Fin 1024) :
    net g (laid (F := Ideal) (looked (xHalf pos) (pinCol0 pins)) (ix2 R c)) (laid (F := Ideal) (looked (xHalf pos) (pinCol1 pins)) (ix2 R c))
        (laid (F := Ideal) (looked (yHalf pos) (pinCol0 pins)) (ix2 R c)) (laid (F := Ideal) (looked (yHalf pos) (pinCol1 pins)) (ix2 R c))
        (laid (F := Ideal) wts (ix2 R c))
      = costAt g pos pins wts (R.val * 1024 + c.val) := by
  simp only [laid_apply]
  unfold costAt
  by_cases h : R.val * 1024 + c.val < 4000000
  · simp only [dif_pos h, looked_apply, xHalf_apply, yHalf_apply, pinCol0_apply, pinCol1_apply]
    rfl
  · simp only [dif_neg h]
    exact net_zero_weight _ _ _ _ _

end Cert.KernelIdeal.Cells

end
-- ==== Proof.Total.lean ====
/-
  The grid's result array and what the host makes of it: the total over all nets.

  Grid point t reads band t of the five staged arrays (rows 512 t … 512 t + 511) and writes the band's total cost into
  every entry of block t of the 64 x 128 result (rows 8 t … 8 t + 7). The eight blocks tile the result, so entry (a, b)
  holds the total of band a / 8. The host then adds up the 8192 entries from zero and divides by 1024: every band total is
  counted 1024 times and the division gives each back once, so the result is the sum of the eight band totals, which is
  the sum of the cost over all 4194304 positions of the extended layout, which is the sum over the 4000000 nets.
-/
import proofs.«173383_j90091234001231_2_alg».proof.Proof.Gen.KernelIdeal.Frame
import proofs.«173383_j90091234001231_2_alg».proof.Proof.BandSum
import proofs.«173383_j90091234001231_2_alg».proof.Proof.Staged
import proofs.«173383_j90091234001231_2_alg».proof.Proof.Cells
import Idealize.ShloMosaic.Lib.Pipeline.Value
import Idealize.ShloMosaic.Lib.StableHlo.Run
import Idealize.ShloMosaic.PureOps.Ideal.Laws

set_option maxRecDepth 16384

noncomputable section

namespace Cert.KernelIdeal.Total

open Cert.KernelIdeal Cert.KernelIdeal.Gen Cert.KernelIdeal.Layout Cert.KernelIdeal.Cells Cert.KernelIdeal.BandSum Cert.KernelIdeal.Staged
open Idealize.ShloMosaic Idealize.ShloMosaic.TcCoe Idealize.ShloMosaic.ValueIdx Idealize.SL.Sem Idealize.ShloMosaic.StableHlo
open Idealize.ShloMosaic.Pipeline (Dat)
open Cert.Wirelength

variable (m : (ℓ : Loc nD τ sig) → Buf (Elt Ideal) ℓ) (ρ : Dev nD → PrngReg)

/-! ## The result array -/

/-- Band `t`'s total: the cost summed over the band's 512 x 1024 positions. -/
def bandTotal (pos : FVec Ideal S10000000 .f32) (pins : IVec S4000000x2 32) (wts : FVec Ideal S4000000 .f32) (t : ℕ) : EReal :=
  ∑ j : S512x1024.Idx, costAt sharp pos pins wts ((512 * t + (j 0).val) * 1024 + (j 1).val)

/-- The result array: entry `(a, b)` holds the total of band `a / 8`. -/
def bandTable (pos : FVec Ideal S10000000 .f32) (pins : IVec S4000000x2 32) (wts : FVec Ideal S4000000 .f32) : S64x128.Idx → EReal :=
  fun i => bandTotal pos pins wts ((i 0).val / 8)

/-- The printed index maps over the eight grid points: every window's block at point `t` is block row `t`, block
    column 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## A band's blocks -/

/-- Row `r` of band `t` is row `512 t + r` of the layout. -/
theorem row_lt (t : Fin cfg0.N) (j : S512x1024.Idx) : 512 * t.val + (j 0).val < 4096 := by
  have ht : t.val < 8 := lt_of_lt_of_eq (show t.val < grid0.N from t.isLt) N_0
  have hj0 : (j 0).val < 512 := (j 0).isLt
  omega

/-- Position `j` of point `t`'s input blocks, as a position of the staged arrays. -/
def cell (t : Fin cfg0.N) (j : S512x1024.Idx) : S4096x1024.Idx :=
  ix2 (⟨512 * t.val + (j 0).val, row_lt t j⟩ : Fin 4096) (⟨(j 1).val, (j 1).isLt⟩ : Fin 1024)

/-- Every input window's block at point `t` sits there. -/
theorem emb0 (t : Fin cfg0.N) (j : S512x1024.Idx) : ((cfg0.win 0).blk t).view.emb j = cell t j := by
  obtain ⟨a0, b0, a1, b1, a2, b2, a3, b3, a4, b4, -, -⟩ := index_facts t
  funext a; apply Fin.ext
  match a with
  | ⟨0, _⟩ => show win0_0.index t (0 : Fin 2) * 512 + 1 * (j 0).val = 512 * t.val + (j 0).val; omega
  | ⟨1, _⟩ => show win0_0.index t (1 : Fin 2) * 1024 + 1 * (j 1).val = (j 1).val; omega
theorem emb1 (t : Fin cfg0.N) (j : S512x1024.Idx) : ((cfg0.win 1).blk t).view.emb j = cell t j := by
  obtain ⟨a0, b0, a1, b1, a2, b2, a3, b3, a4, b4, -, -⟩ := index_facts t
  funext a; apply Fin.ext
  match a with
  | ⟨0, _⟩ => show win0_1.index t (0 : Fin 2) * 512 + 1 * (j 0).val = 512 * t.val + (j 0).val; omega
  | ⟨1, _⟩ => show win0_1.index t (1 : Fin 2) * 1024 + 1 * (j 1).val = (j 1).val; omega
theorem emb2 (t : Fin cfg0.N) (j : S512x1024.Idx) : ((cfg0.win 2).blk t).view.emb j = cell t j := by
  obtain ⟨a0, b0, a1, b1, a2, b2, a3, b3, a4, b4, -, -⟩ := index_facts t
  funext a; apply Fin.ext
  match a with
  | ⟨0, _⟩ => show win0_2.index t (0 : Fin 2) * 512 + 1 * (j 0).val = 512 * t.val + (j 0).val; omega
  | ⟨1, _⟩ => show win0_2.index t (1 : Fin 2) * 1024 + 1 * (j 1).val = (j 1).val; omega
theorem emb3 (t : Fin cfg0.N) (j : S512x1024.Idx) : ((cfg0.win 3).blk t).view.emb j = cell t j := by
  obtain ⟨a0, b0, a1, b1, a2, b2, a3, b3, a4, b4, -, -⟩ := index_facts t
  funext a; apply Fin.ext
  match a with
  | ⟨0, _⟩ => show win0_3.index t (0 : Fin 2) * 512 + 1 * (j 0).val = 512 * t.val + (j 0).val; omega
  | ⟨1, _⟩ => show win0_3.index t (1 : Fin 2) * 1024 + 1 * (j 1).val = (j 1).val; omega
theorem emb4 (t : Fin cfg0.N) (j : S512x1024.Idx) : ((cfg0.win 4).blk t).view.emb j = cell t j := by
  obtain ⟨a0, b0, a1, b1, a2, b2, a3, b3, a4, b4, -, -⟩ := index_facts t
  funext a; apply Fin.ext
  match a with
  | ⟨0, _⟩ => show win0_4.index t (0 : Fin 2) * 512 + 1 * (j 0).val = 512 * t.val + (j 0).val; omega
  | ⟨1, _⟩ => show win0_4.index t (1 : Fin 2) * 1024 + 1 * (j 1).val = (j 1).val; omega

set_option maxHeartbeats 1000000 in
/-- Window 0's block at point `t`: the x coordinates of the first pins of band `t`'s cells. -/
theorem block0_at (c : Dev nD) (t : Fin cfg0.N) (j : S512x1024.Idx) :
    iblk m c 0 t j = laid (F := Ideal) (looked (F := Ideal) (xHalf (F := Ideal) (m ((c : Thread nD τ).loc main_arg0))) (pinCol0 (m ((c : Thread nD τ).loc main_arg1)))) (cell t j) := by
  refine (show iblk m c 0 t j = V m c main_v35 (((cfg0.win 0).blk t).view.emb j) from rfl).trans ?_
  rw [emb0]
  exact congrFun (staged0 m c) _

set_option maxHeartbeats 1000000 in
/-- Window 1's block: the x coordinates of the second pins. -/
theorem block1_at (c : Dev nD) (t : Fin cfg0.N) (j : S512x1024.Idx) :
    iblk m c 1 t j = laid (F := Ideal) (looked (F := Ideal) (xHalf (F := Ideal) (m ((c : Thread nD τ).loc main_arg0))) (pinCol1 (m ((c : Thread nD τ).loc main_arg1)))) (cell t j) := by
  refine (show iblk m c 1 t j = V m c main_v37 (((cfg0.win 1).blk t).view.emb j) from rfl).trans ?_
  rw [emb1]
  exact congrFun (staged1 m c) _

set_option maxHeartbeats 1000000 in
/-- Window 2's block: the y coordinates of the first pins. -/
theorem block2_at (c : Dev nD) (t : Fin cfg0.N) (j : S512x1024.Idx) :
    iblk m c 2 t j = laid (F := Ideal) (looked (F := Ideal) (yHalf (F := Ideal) (m ((c : Thread nD τ).loc main_arg0))) (pinCol0 (m ((c : Thread nD τ).loc main_arg1)))) (cell t j) := by
  refine (show iblk m c 2 t j = V m c main_v39 (((cfg0.win 2).blk t).view.emb j) from rfl).trans ?_
  rw [emb2]
  exact congrFun (staged2 m c) _

set_option maxHeartbeats 1000000 in
/-- Window 3's block: the y coordinates of the second pins. -/
theorem block3_at (c : Dev nD) (t : Fin cfg0.N) (j : S512x1024.Idx) :
    iblk m c 3 t j = laid (F := Ideal) (looked (F := Ideal) (yHalf (F := Ideal) (m ((c : Thread nD τ).loc main_arg0))) (pinCol1 (m ((c : Thread nD τ).loc main_arg1)))) (cell t j) := by
  refine (show iblk m c 3 t j = V m c main_v41 (((cfg0.win 3).blk t).view.emb j) from rfl).trans ?_
  rw [emb3]
  exact congrFun (staged3 m c) _

set_option maxHeartbeats 1000000 in
/-- Window 4's block: the weights. -/
theorem block4_at (c : Dev nD) (t : Fin cfg0.N) (j : S512x1024.Idx) :
    iblk m c 4 t j = laid (F := Ideal) (m ((c : Thread nD τ).loc main_arg2)) (cell t j) := by
  refine (show iblk m c 4 t j = V m c main_v43 (((cfg0.win 4).blk t).view.emb j) from rfl).trans ?_
  rw [emb4]
  exact congrFun (staged4 m c) _

set_option maxHeartbeats 1000000 in
/-- What point `t` writes back is block `t` of the result array. -/
theorem flushed_eq (c : Dev nD) (t : Fin cfg0.N) :
    (dats m 0 c).flushed 5 t = ((cfg0.win 5).blk t).view.read (Elt Ideal)
      (bandTable (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  obtain ⟨-, -, -, -, -, -, -, -, -, -, a5, b5⟩ := index_facts t
  funext y
  have hy0 : (y 0).val < 8 := (y 0).isLt
  show out0_5 (iblk m c 0 t) (iblk m c 1 t) (iblk m c 2 t) (iblk m c 3 t) (iblk m c 4 t) y
    = bandTable _ _ _ (((cfg0.win 5).blk t).view.emb y)
  refine (block_eq _ _ _ _ _ y).trans ?_
  unfold bandTable bandTotal
  have hrow : ((((cfg0.win 5).blk t).view.emb y) 0).val / 8 = t.val := by
    show (win0_5.index t (0 : Fin 2) * 8 + 1 * (y 0).val) / 8 = t.val
    omega
  rw [hrow]
  refine Finset.sum_congr rfl fun j _ => ?_
  rw [block0_at, block1_at, block2_at, block3_at, block4_at]
  exact cell_cost sharp _ _ _ ⟨512 * t.val + (j 0).val, row_lt t j⟩ ⟨(j 1).val, (j 1).isLt⟩

/-- An entry of the result array is in point `t`'s block iff each coordinate is in the block's range on its axis. -/
theorem mem_blk (t : Fin cfg0.N) (i : S64x128.Idx) :
    i ∈ ((cfg0.win 5).blk t).view.set ↔ ∀ a : Fin 2, win0_5.index t a * S8x128.size a ≤ (i a).val
      ∧ (i a).val < win0_5.index t a * S8x128.size a + S8x128.size a := by
  show i ∈ ((View.whole main_v44).slice (win0_5.rect t)).set ↔ _
  rw [View.set_slice_whole, Rect.mem_set_unit]
  exact Iff.rfl

/-- The eight blocks tile the result array: row `a` is in block `a / 8`. -/
theorem covered (i : S64x128.Idx) : ∃ t : Fin cfg0.N, (cfg0.win 5).flush t = true ∧ i ∈ ((cfg0.win 5).blk t).view.set := by
  have hi0 : (i 0).val < 64 := (i 0).isLt
  have hi1 : (i 1).val < 128 := (i 1).isLt
  have hlt : (i 0).val / 8 < cfg0.N := by show (i 0).val / 8 < grid0.N; rw [N_0]; omega
  obtain ⟨-, -, -, -, -, -, -, -, -, -, a5, b5⟩ := index_facts ⟨(i 0).val / 8, hlt⟩
  have a5' : win0_5.index ⟨(i 0).val / 8, hlt⟩ (0 : Fin 2) = (i 0).val / 8 := a5
  refine ⟨⟨(i 0).val / 8, hlt⟩, flush0_5 _, ?_⟩
  rw [mem_blk]
  intro a
  match a with
  | ⟨0, _⟩ =>
    show win0_5.index ⟨(i 0).val / 8, hlt⟩ (0 : Fin 2) * 8 ≤ (i 0).val ∧ (i 0).val < win0_5.index ⟨(i 0).val / 8, hlt⟩ (0 : Fin 2) * 8 + 8
    omega
  | ⟨1, _⟩ =>
    show win0_5.index ⟨(i 0).val / 8, hlt⟩ (1 : Fin 2) * 128 ≤ (i 1).val ∧ (i 1).val < win0_5.index ⟨(i 0).val / 8, hlt⟩ (1 : Fin 2) * 128 + 128
    omega

/-- The result array after the grid. -/
theorem final (c : Dev nD) : (dats m 0 c).arrAt 5 cfg0.N
    = bandTable (m ((c : Thread nD τ).loc main_arg0)) (m ((c : Thread nD τ).loc main_arg1)) (m ((c : Thread nD τ).loc main_arg2)) :=
  (dats m 0 c).arrAt_eq_of_cover 5 _ (fun t _ => flushed_eq m c t) covered

/-! ## The host's total -/

/-- The word 0x44800000 denotes the real 1024. -/
theorem ofBits_1024 : Ideal.ofBits .f32 0x44800000#32 = ((1024 : ℝ) : EReal) := by
  simp [Ideal.ofBits, Ideal.ieee, -EReal.coe_mul]; norm_num

/-- The result array's entries added up from zero and divided by 1024: the total over all nets. -/
theorem table_sum (pos : FVec Ideal S10000000 .f32) (pins : IVec S4000000x2 32) (wts : FVec Ideal S4000000 .f32) :
    Ideal.div (Ideal.ofBits .f32 0x00000000#32 + ∑ i : S64x128.Idx, bandTable pos pins wts i) (Ideal.ofBits .f32 0x44800000#32)
      = total sharp pos pins wts := by
  rw [Ideal.ofBits_zero_f32, ofBits_1024, sum_idx2]
  show Ideal.div (0 + ∑ a : Fin 64, ∑ _b : Fin 128, bandTotal pos pins wts (a.val / 8)) _ = _
  rw [table_total (bandTotal pos pins wts)]
  unfold bandTotal
  simp only [sum_idx2]
  show ∑ t : Fin 8, ∑ r : Fin 512, ∑ c : Fin 1024, costAt sharp pos pins wts ((512 * t.val + r.val) * 1024 + c.val) = _
  rw [sum_bands (costAt sharp pos pins wts) (costAt_extension sharp pos pins wts)]
  unfold total
  exact Finset.sum_congr rfl fun t _ => costAt_net sharp pos pins wts t

/-- The program's result buffer after the host lines that follow the grid. -/
theorem result_eq (c : Dev nD) :
    Pipeline.afterTail₀ cfgs (dats m) 0 (V0 m) [hostOps1] c main_v46
      = fun _ => total sharp (m ((c : Thread nD τ).loc main_arg0)) (m ((c : Thread nD τ).loc main_arg1)) (m ((c : Thread nD τ).loc main_arg2)) := by
  unfold Pipeline.afterTail₀
  show StableHlo.after hostOps1 _ (Proc.devRef .tc main_v46) = _
  after_results
  rw [(Pipeline.withArrays_arr spec0 launch0.win.arr_inj c _ _ 5).trans (final m c)]
  funext i
  show Ideal.div (Ideal.hostReduceAdd reducesTo_S64x128_S_d0_1 _ (Ideal.ofBits .f32 0x00000000#32) _) (Ideal.ofBits .f32 0x44800000#32) = _
  rw [Ideal.hostReduceAdd_total reducesTo_S64x128_S_d0_1 (fun b => b.elim0)]
  exact table_sum _ _ _

/-! ## The run -/

/-- Every run of the program ends with the result buffer at the total over all nets and the arguments unchanged. -/
theorem run : θ_run defs (onTc (τ := τ) (main (F := Ideal))) ⟨m, fun _ => 0, ρ⟩ fun r => ∀ c : Dev nD,
      r.2.mem ((c.tc : Thread nD τ).loc main_v46)
        = (fun _ => total sharp (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v46 (Pipeline.mem_restRefs_of main_v46 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Total

end
-- ==== Proof.RefTotal.lean ====
/-
  The reference program's result is the total cost of the specification.

  The program works on whole arrays. It gathers the x coordinates of every net's two pins into an array of 4000000 rows
  of 2 (and the y coordinates into a second one), and from each such array computes one number per row; it adds the two
  numbers of a row, multiplies by the row's weight, and sums over the rows. Read at one net `t`, every array operation
  is a scalar operation on the row's two entries:

    * a reduce along a row from −∞ with the maximum is the larger of the row's two entries, from +∞ with the minimum the
      smaller, and from zero with addition their sum: the fold of a commutative and associative operation over a
      two-element index set is the operation applied to the two entries and the initial value, and −∞, +∞ and 0 are
      neutral for the three operations;
    * a broadcast along a row gives the row's reduced value back at both of its entries;
    * the gather reads the position array at the pin number, counted from the end when negative and clamped into the
      pin range, in the first half of the array for an x coordinate and in the second half for a y coordinate.

  Composed in the program's order these are, term by term, the `spread` of a row's two coordinates, a net's `cost`, and
  the `total` of the specification, whose expressions follow the same order of operations; so once each operation has
  been read at the net, the two sides agree by unfolding. The factor 2 the program scales by stays the single-precision
  word it is written as, on both sides.
-/
import proofs.«173383_j90091234001231_2_alg».proof.Proof.Gen.ReferenceIdeal.Read
import proofs.«173383_j90091234001231_2_alg».proof.Proof.Spec
import Idealize.ShloMosaic.Lib.ValueIdx
import Idealize.ShloMosaic.PureOps.Ideal.Laws

noncomputable section

namespace Cert.ReferenceIdeal.RefTotal

open Cert.ReferenceIdeal Cert.ReferenceIdeal.Gen Cert.ReferenceIdeal.Read Idealize.ShloMosaic Idealize.ShloMosaic.ValueIdx
  Idealize.ShloMosaic.StableHlo

/-- The sharpness the program multiplies every coordinate by: the single-precision word of 2, never evaluated. -/
abbrev sharp : EReal := Ideal.ofBits .f32 0x40000000#32

/-- The word of −∞ denotes the bottom element. -/
theorem ofBits_neg_inf : Ideal.ofBits .f32 0xFF800000#32 = ⊥ := by simp [Ideal.ofBits, Ideal.ieee]
/-- The word of +∞ denotes the top element. -/
theorem ofBits_pos_inf : Ideal.ofBits .f32 0x7F800000#32 = ⊤ := by simp [Ideal.ofBits, Ideal.ieee]

/-- A rank-2 index is determined by the values of its two coordinates. -/
theorem eq_ix2_of_val {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A rank-1 index is determined by the value of its coordinate. -/
theorem eq_ix1_of_val {n : Nat} (j : (⟨1, ![n]⟩ : Shape).Idx) (a : Fin n) (h0 : (j 0).val = a.val) : j = ix1 a := by
  funext d
  match d with
  | ⟨0, _⟩ => exact Fin.ext h0

/-- The fold of a commutative, associative operation over a two-element index set: the operation applied to the two
    entries and the initial value. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- Row `t` with the pair coordinate `k` put back is entry `(t, k)`. -/
theorem lift_pair (h : S4000000x2.Reduces [1] S4000000) (t : Fin 4000000) (k : Fin (S4000000x2.size 1)) :
    h.lift (ix1 t) k = ix2 t (⟨k.val, k.isLt⟩ : Fin 2) :=
  eq_ix2_of_val _ _ _ rfl rfl

/-- From −∞ a maximum-reduce over a pair is the larger of the two entries. -/
theorem reduce_max_pair (x : S4000000x2.Idx → EReal) (init : S_.Idx → EReal) (h' : S4000000x2.ReducesTo [1] S4000000)
    (hu : 0 < S_.numel) (t : Fin 4000000) (hinit : init (Shape.Idx.first hu) = ⊥) :
    Host.reduce (FloatOps.maximumf (F := Ideal) (φ := .f32)) x init h' hu (ix1 t) = max (x (ix2 t 0)) (x (ix2 t 1)) := by
  have h : S4000000x2.Reduces [1] S4000000 := by decide
  rw [Host.reduce_eq_fold_single _ x init h' h hu, hinit]
  have e := fold_univ_fin2 (max : EReal → EReal → EReal) ⊥ (fun k : Fin 2 => x (ix2 t k))
  rw [max_bot_right] at e
  refine Eq.trans ?_ e
  have hf : (x ∘ h.lift (ix1 t)) = fun k : Fin 2 => x (ix2 t k) := funext fun k => congrArg x (lift_pair h t k)
  exact congrArg (fun f => Finset.fold max ⊥ f (Finset.univ : Finset (Fin 2))) hf

/-- From +∞ a minimum-reduce over a pair is the smaller of the two entries. -/
theorem reduce_min_pair (x : S4000000x2.Idx → EReal) (init : S_.Idx → EReal) (h' : S4000000x2.ReducesTo [1] S4000000)
    (hu : 0 < S_.numel) (t : Fin 4000000) (hinit : init (Shape.Idx.first hu) = ⊤) :
    Host.reduce (FloatOps.minimumf (F := Ideal) (φ := .f32)) x init h' hu (ix1 t) = min (x (ix2 t 0)) (x (ix2 t 1)) := by
  have h : S4000000x2.Reduces [1] S4000000 := by decide
  rw [Host.reduce_eq_fold_single _ x init h' h hu, hinit]
  have e := fold_univ_fin2 (min : EReal → EReal → EReal) ⊤ (fun k : Fin 2 => x (ix2 t k))
  rw [min_top_right] at e
  refine Eq.trans ?_ e
  have hf : (x ∘ h.lift (ix1 t)) = fun k : Fin 2 => x (ix2 t k) := funext fun k => congrArg x (lift_pair h t k)
  exact congrArg (fun f => Finset.fold min ⊤ f (Finset.univ : Finset (Fin 2))) hf

/-! ## The x coordinates: from the gathered pair to its spread -/

/-- The scaled coordinate: the gathered x coordinate times the sharpness. -/
theorem v17_at (x0 : (⟨S10000000, .f32⟩ : BufTy).Contents (Elt Ideal)) (x1 : (⟨S4000000x2, .i32⟩ : BufTy).Contents (Elt Ideal))
    (j : S4000000x2.Idx) : val_main_v17 (F := Ideal) x0 x1 j = val_main_v8 (F := Ideal) x0 x1 j * sharp := by
  rw [val_main_v17_apply, val_main_v16_apply, val_main_cst_apply]
  rfl

/-- The row maximum of the scaled x coordinates of net `t`. -/
theorem v18_at (x0 : (⟨S10000000, .f32⟩ : BufTy).Contents (Elt Ideal)) (x1 : (⟨S4000000x2, .i32⟩ : BufTy).Contents (Elt Ideal))
    (t : Fin 4000000) :
    val_main_v18 (F := Ideal) x0 x1 (ix1 t)
      = max (val_main_v8 (F := Ideal) x0 x1 (ix2 t 0) * sharp) (val_main_v8 (F := Ideal) x0 x1 (ix2 t 1) * sharp) := by
  unfold val_main_v18
  rw [reduce_max_pair _ _ _ _ t (by rw [val_main_cst_3_apply]; exact ofBits_neg_inf), v17_at, v17_at]

/-- The row minimum of the scaled x coordinates of net `t`. -/
theorem v20_at (x0 : (⟨S10000000, .f32⟩ : BufTy).Contents (Elt Ideal)) (x1 : (⟨S4000000x2, .i32⟩ : BufTy).Contents (Elt Ideal))
    (t : Fin 4000000) :
    val_main_v20 (F := Ideal) x0 x1 (ix1 t)
      = min (val_main_v8 (F := Ideal) x0 x1 (ix2 t 0) * sharp) (val_main_v8 (F := Ideal) x0 x1 (ix2 t 1) * sharp) := by
  unfold val_main_v20
  rw [reduce_min_pair _ _ _ _ t (by rw [val_main_cst_4_apply]; exact ofBits_pos_inf), v17_at, v17_at]

/-- The row maximum broadcast back along the row: the same value at both entries. -/
theorem v22_at (x0 : (⟨S10000000, .f32⟩ : BufTy).Contents (Elt Ideal)) (x1 : (⟨S4000000x2, .i32⟩ : BufTy).Contents (Elt Ideal))
    (t : Fin 4000000) (k : Fin 2) :
    val_main_v22 (F := Ideal) x0 x1 (ix2 t k) = val_main_v18 (F := Ideal) x0 x1 (ix1 t) := by
  rw [val_main_v22_apply, val_main_v19_apply]
  exact congrArg _ (eq_ix1_of_val _ _ rfl)

/-- The row minimum broadcast back along the row: the same value at both entries. -/
theorem v25_at (x0 : (⟨S10000000, .f32⟩ : BufTy).Contents (Elt Ideal)) (x1 : (⟨S4000000x2, .i32⟩ : BufTy).Contents (Elt Ideal))
    (t : Fin 4000000) (k : Fin 2) :
    val_main_v25 (F := Ideal) x0 x1 (ix2 t k) = val_main_v20 (F := Ideal) x0 x1 (ix1 t) := by
  rw [val_main_v25_apply, val_main_v21_apply]
  exact congrArg _ (eq_ix1_of_val _ _ rfl)

/-- The weight leaning to the larger x coordinate: the exponential of the scaled coordinate minus the row maximum. -/
theorem v24_at (x0 : (⟨S10000000, .f32⟩ : BufTy).Contents (Elt Ideal)) (x1 : (⟨S4000000x2, .i32⟩ : BufTy).Contents (Elt Ideal))
    (t : Fin 4000000) (k : Fin 2) :
    val_main_v24 (F := Ideal) x0 x1 (ix2 t k)
      = Ideal.exp (val_main_v8 (F := Ideal) x0 x1 (ix2 t k) * sharp
          - max (val_main_v8 (F := Ideal) x0 x1 (ix2 t 0) * sharp) (val_main_v8 (F := Ideal) x0 x1 (ix2 t 1) * sharp)) := by
  rw [val_main_v24_apply, val_main_v23_apply, v17_at, v22_at, v18_at]
  rfl

/-- The weight leaning to the smaller x coordinate: the exponential of the row minimum minus the scaled coordinate. -/
theorem v27_at (x0 : (⟨S10000000, .f32⟩ : BufTy).Contents (Elt Ideal)) (x1 : (⟨S4000000x2, .i32⟩ : BufTy).Contents (Elt Ideal))
    (t : Fin 4000000) (k : Fin 2) :
    val_main_v27 (F := Ideal) x0 x1 (ix2 t k)
      = Ideal.exp (min (val_main_v8 (F := Ideal) x0 x1 (ix2 t 0) * sharp) (val_main_v8 (F := Ideal) x0 x1 (ix2 t 1) * sharp)
          - val_main_v8 (F := Ideal) x0 x1 (ix2 t k) * sharp) := by
  rw [val_main_v27_apply, val_main_v26_apply, v17_at, v25_at, v20_at]
  rfl

/-- A two-entry sum from the zero word is the sum of the two entries. -/
theorem pair_sum (c : EReal) (hc : c = 0) (f : Fin 2 → EReal) : c + ∑ k : Fin 2, f k = f 0 + f 1 := by
  rw [hc, zero_add, Fin.sum_univ_two]

/-- The numerator of the average leaning to the larger x coordinate: the two coordinates times their weights, added. -/
theorem v29_at (x0 : (⟨S10000000, .f32⟩ : BufTy).Contents (Elt Ideal)) (x1 : (⟨S4000000x2, .i32⟩ : BufTy).Contents (Elt Ideal))
    (t : Fin 4000000) :
    val_main_v29 (F := Ideal) x0 x1 (ix1 t)
      = val_main_v8 (F := Ideal) x0 x1 (ix2 t 0) * val_main_v24 (F := Ideal) x0 x1 (ix2 t 0)
        + val_main_v8 (F := Ideal) x0 x1 (ix2 t 1) * val_main_v24 (F := Ideal) x0 x1 (ix2 t 1) := by
  rw [val_main_v29_apply, pair_sum _ (by rw [val_main_cst_5_apply]; exact Ideal.ofBits_zero_f32),
    eq_ix2_of_val (idx_main_v29 (ix1 t) 0) t 0 rfl rfl, eq_ix2_of_val (idx_main_v29 (ix1 t) 1) t 1 rfl rfl,
    val_main_v28_apply, val_main_v28_apply]
  rfl

/-- Its denominator: the two weights added. -/
theorem v30_at (x0 : (⟨S10000000, .f32⟩ : BufTy).Contents (Elt Ideal)) (x1 : (⟨S4000000x2, .i32⟩ : BufTy).Contents (Elt Ideal))
    (t : Fin 4000000) :
    val_main_v30 (F := Ideal) x0 x1 (ix1 t)
      = val_main_v24 (F := Ideal) x0 x1 (ix2 t 0) + val_main_v24 (F := Ideal) x0 x1 (ix2 t 1) := by
  rw [val_main_v30_apply, pair_sum _ (by rw [val_main_cst_6_apply]; exact Ideal.ofBits_zero_f32),
    eq_ix2_of_val (idx_main_v30 (ix1 t) 0) t 0 rfl rfl, eq_ix2_of_val (idx_main_v30 (ix1 t) 1) t 1 rfl rfl]

/-- The numerator of the average leaning to the smaller x coordinate. -/
theorem v33_at (x0 : (⟨S10000000, .f32⟩ : BufTy).Contents (Elt Ideal)) (x1 : (⟨S4000000x2, .i32⟩ : BufTy).Contents (Elt Ideal))
    (t : Fin 4000000) :
    val_main_v33 (F := Ideal) x0 x1 (ix1 t)
      = val_main_v8 (F := Ideal) x0 x1 (ix2 t 0) * val_main_v27 (F := Ideal) x0 x1 (ix2 t 0)
        + val_main_v8 (F := Ideal) x0 x1 (ix2 t 1) * val_main_v27 (F := Ideal) x0 x1 (ix2 t 1) := by
  rw [val_main_v33_apply, pair_sum _ (by rw [val_main_cst_7_apply]; exact Ideal.ofBits_zero_f32),
    eq_ix2_of_val (idx_main_v33 (ix1 t) 0) t 0 rfl rfl, eq_ix2_of_val (idx_main_v33 (ix1 t) 1) t 1 rfl rfl,
    val_main_v32_apply, val_main_v32_apply]
  rfl

/-- Its denominator. -/
theorem v34_at (x0 : (⟨S10000000, .f32⟩ : BufTy).Contents (Elt Ideal)) (x1 : (⟨S4000000x2, .i32⟩ : BufTy).Contents (Elt Ideal))
    (t : Fin 4000000) :
    val_main_v34 (F := Ideal) x0 x1 (ix1 t)
      = val_main_v27 (F := Ideal) x0 x1 (ix2 t 0) + val_main_v27 (F := Ideal) x0 x1 (ix2 t 1) := by
  rw [val_main_v34_apply, pair_sum _ (by rw [val_main_cst_8_apply]; exact Ideal.ofBits_zero_f32),
    eq_ix2_of_val (idx_main_v34 (ix1 t) 0) t 0 rfl rfl, eq_ix2_of_val (idx_main_v34 (ix1 t) 1) t 1 rfl rfl]

/-- The x part of net `t`: the spread of its two gathered x coordinates. -/
theorem v36_at (x0 : (⟨S10000000, .f32⟩ : BufTy).Contents (Elt Ideal)) (x1 : (⟨S4000000x2, .i32⟩ : BufTy).Contents (Elt Ideal))
    (t : Fin 4000000) :
    val_main_v36 (F := Ideal) x0 x1 (ix1 t)
      = Cert.Wirelength.spread sharp (val_main_v8 (F := Ideal) x0 x1 (ix2 t 0)) (val_main_v8 (F := Ideal) x0 x1 (ix2 t 1)) := by
  rw [val_main_v36_apply, val_main_v31_apply, val_main_v35_apply, v29_at, v30_at, v33_at, v34_at,
    v24_at, v24_at, v27_at, v27_at]
  rfl

/-! ## The y coordinates: the same operations on the other gathered pair -/

/-- The scaled coordinate: the gathered y coordinate times the sharpness. -/
theorem v38_at (x0 : (⟨S10000000, .f32⟩ : BufTy).Contents (Elt Ideal)) (x1 : (⟨S4000000x2, .i32⟩ : BufTy).Contents (Elt Ideal))
    (j : S4000000x2.Idx) : val_main_v38 (F := Ideal) x0 x1 j = val_main_v15 (F := Ideal) x0 x1 j * sharp := by
  rw [val_main_v38_apply, val_main_v37_apply, val_main_cst_9_apply]
  rfl

/-- The row maximum of the scaled y coordinates of net `t`. -/
theorem v39_at (x0 : (⟨S10000000, .f32⟩ : BufTy).Contents (Elt Ideal)) (x1 : (⟨S4000000x2, .i32⟩ : BufTy).Contents (Elt Ideal))
    (t : Fin 4000000) :
    val_main_v39 (F := Ideal) x0 x1 (ix1 t)
      = max (val_main_v15 (F := Ideal) x0 x1 (ix2 t 0) * sharp) (val_main_v15 (F := Ideal) x0 x1 (ix2 t 1) * sharp) := by
  unfold val_main_v39
  rw [reduce_max_pair _ _ _ _ t (by rw [val_main_cst_10_apply]; exact ofBits_neg_inf), v38_at, v38_at]

/-- The row minimum of the scaled y coordinates of net `t`. -/
theorem v41_at (x0 : (⟨S10000000, .f32⟩ : BufTy).Contents (Elt Ideal)) (x1 : (⟨S4000000x2, .i32⟩ : BufTy).Contents (Elt Ideal))
    (t : Fin 4000000) :
    val_main_v41 (F := Ideal) x0 x1 (ix1 t)
      = min (val_main_v15 (F := Ideal) x0 x1 (ix2 t 0) * sharp) (val_main_v15 (F := Ideal) x0 x1 (ix2 t 1) * sharp) := by
  unfold val_main_v41
  rw [reduce_min_pair _ _ _ _ t (by rw [val_main_cst_11_apply]; exact ofBits_pos_inf), v38_at, v38_at]

/-- The row maximum broadcast back along the row: the same value at both entries. -/
theorem v43_at (x0 : (⟨S10000000, .f32⟩ : BufTy).Contents (Elt Ideal)) (x1 : (⟨S4000000x2, .i32⟩ : BufTy).Contents (Elt Ideal))
    (t : Fin 4000000) (k : Fin 2) :
    val_main_v43 (F := Ideal) x0 x1 (ix2 t k) = val_main_v39 (F := Ideal) x0 x1 (ix1 t) := by
  rw [val_main_v43_apply, val_main_v40_apply]
  exact congrArg _ (eq_ix1_of_val _ _ rfl)

/-- The row minimum broadcast back along the row: the same value at both entries. -/
theorem v46_at (x0 : (⟨S10000000, .f32⟩ : BufTy).Contents (Elt Ideal)) (x1 : (⟨S4000000x2, .i32⟩ : BufTy).Contents (Elt Ideal))
    (t : Fin 4000000) (k : Fin 2) :
    val_main_v46 (F := Ideal) x0 x1 (ix2 t k) = val_main_v41 (F := Ideal) x0 x1 (ix1 t) := by
  rw [val_main_v46_apply, val_main_v42_apply]
  exact congrArg _ (eq_ix1_of_val _ _ rfl)

/-- The weight leaning to the larger y coordinate: the exponential of the scaled coordinate minus the row maximum. -/
theorem v45_at (x0 : (⟨S10000000, .f32⟩ : BufTy).Contents (Elt Ideal)) (x1 : (⟨S4000000x2, .i32⟩ : BufTy).Contents (Elt Ideal))
    (t : Fin 4000000) (k : Fin 2) :
    val_main_v45 (F := Ideal) x0 x1 (ix2 t k)
      = Ideal.exp (val_main_v15 (F := Ideal) x0 x1 (ix2 t k) * sharp
          - max (val_main_v15 (F := Ideal) x0 x1 (ix2 t 0) * sharp) (val_main_v15 (F := Ideal) x0 x1 (ix2 t 1) * sharp)) := by
  rw [val_main_v45_apply, val_main_v44_apply, v38_at, v43_at, v39_at]
  rfl

/-- The weight leaning to the smaller y coordinate: the exponential of the row minimum minus the scaled coordinate. -/
theorem v48_at (x0 : (⟨S10000000, .f32⟩ : BufTy).Contents (Elt Ideal)) (x1 : (⟨S4000000x2, .i32⟩ : BufTy).Contents (Elt Ideal))
    (t : Fin 4000000) (k : Fin 2) :
    val_main_v48 (F := Ideal) x0 x1 (ix2 t k)
      = Ideal.exp (min (val_main_v15 (F := Ideal) x0 x1 (ix2 t 0) * sharp) (val_main_v15 (F := Ideal) x0 x1 (ix2 t 1) * sharp)
          - val_main_v15 (F := Ideal) x0 x1 (ix2 t k) * sharp) := by
  rw [val_main_v48_apply, val_main_v47_apply, v38_at, v46_at, v41_at]
  rfl

/-- The numerator of the average leaning to the larger y coordinate: the two coordinates times their weights, added. -/
theorem v50_at (x0 : (⟨S10000000, .f32⟩ : BufTy).Contents (Elt Ideal)) (x1 : (⟨S4000000x2, .i32⟩ : BufTy).Contents (Elt Ideal))
    (t : Fin 4000000) :
    val_main_v50 (F := Ideal) x0 x1 (ix1 t)
      = val_main_v15 (F := Ideal) x0 x1 (ix2 t 0) * val_main_v45 (F := Ideal) x0 x1 (ix2 t 0)
        + val_main_v15 (F := Ideal) x0 x1 (ix2 t 1) * val_main_v45 (F := Ideal) x0 x1 (ix2 t 1) := by
  rw [val_main_v50_apply, pair_sum _ (by rw [val_main_cst_12_apply]; exact Ideal.ofBits_zero_f32),
    eq_ix2_of_val (idx_main_v50 (ix1 t) 0) t 0 rfl rfl, eq_ix2_of_val (idx_main_v50 (ix1 t) 1) t 1 rfl rfl,
    val_main_v49_apply, val_main_v49_apply]
  rfl

/-- Its denominator: the two weights added. -/
theorem v51_at (x0 : (⟨S10000000, .f32⟩ : BufTy).Contents (Elt Ideal)) (x1 : (⟨S4000000x2, .i32⟩ : BufTy).Contents (Elt Ideal))
    (t : Fin 4000000) :
    val_main_v51 (F := Ideal) x0 x1 (ix1 t)
      = val_main_v45 (F := Ideal) x0 x1 (ix2 t 0) + val_main_v45 (F := Ideal) x0 x1 (ix2 t 1) := by
  rw [val_main_v51_apply, pair_sum _ (by rw [val_main_cst_13_apply]; exact Ideal.ofBits_zero_f32),
    eq_ix2_of_val (idx_main_v51 (ix1 t) 0) t 0 rfl rfl, eq_ix2_of_val (idx_main_v51 (ix1 t) 1) t 1 rfl rfl]

/-- The numerator of the average leaning to the smaller y coordinate. -/
theorem v54_at (x0 : (⟨S10000000, .f32⟩ : BufTy).Contents (Elt Ideal)) (x1 : (⟨S4000000x2, .i32⟩ : BufTy).Contents (Elt Ideal))
    (t : Fin 4000000) :
    val_main_v54 (F := Ideal) x0 x1 (ix1 t)
      = val_main_v15 (F := Ideal) x0 x1 (ix2 t 0) * val_main_v48 (F := Ideal) x0 x1 (ix2 t 0)
        + val_main_v15 (F := Ideal) x0 x1 (ix2 t 1) * val_main_v48 (F := Ideal) x0 x1 (ix2 t 1) := by
  rw [val_main_v54_apply, pair_sum _ (by rw [val_main_cst_14_apply]; exact Ideal.ofBits_zero_f32),
    eq_ix2_of_val (idx_main_v54 (ix1 t) 0) t 0 rfl rfl, eq_ix2_of_val (idx_main_v54 (ix1 t) 1) t 1 rfl rfl,
    val_main_v53_apply, val_main_v53_apply]
  rfl

/-- Its denominator. -/
theorem v55_at (x0 : (⟨S10000000, .f32⟩ : BufTy).Contents (Elt Ideal)) (x1 : (⟨S4000000x2, .i32⟩ : BufTy).Contents (Elt Ideal))
    (t : Fin 4000000) :
    val_main_v55 (F := Ideal) x0 x1 (ix1 t)
      = val_main_v48 (F := Ideal) x0 x1 (ix2 t 0) + val_main_v48 (F := Ideal) x0 x1 (ix2 t 1) := by
  rw [val_main_v55_apply, pair_sum _ (by rw [val_main_cst_15_apply]; exact Ideal.ofBits_zero_f32),
    eq_ix2_of_val (idx_main_v55 (ix1 t) 0) t 0 rfl rfl, eq_ix2_of_val (idx_main_v55 (ix1 t) 1) t 1 rfl rfl]

/-- The y part of net `t`: the spread of its two gathered y coordinates. -/
theorem v57_at (x0 : (⟨S10000000, .f32⟩ : BufTy).Contents (Elt Ideal)) (x1 : (⟨S4000000x2, .i32⟩ : BufTy).Contents (Elt Ideal))
    (t : Fin 4000000) :
    val_main_v57 (F := Ideal) x0 x1 (ix1 t)
      = Cert.Wirelength.spread sharp (val_main_v15 (F := Ideal) x0 x1 (ix2 t 0)) (val_main_v15 (F := Ideal) x0 x1 (ix2 t 1)) := by
  rw [val_main_v57_apply, val_main_v52_apply, val_main_v56_apply, v50_at, v51_at, v54_at, v55_at,
    v45_at, v45_at, v48_at, v48_at]
  rfl

/-! ## The two gathers: a pin's coordinate in the position array -/

/-- The start index the x gather reads for entry `(t, k)`: the pin number, counted from the end when negative. -/
theorem v7_at (x1 : (⟨S4000000x2, .i32⟩ : BufTy).Contents (Elt Ideal)) (t : Fin 4000000) (k : Fin 2) :
    val_main_v7 (F := Ideal) x1 (takeIdx (ix2 t k)) = Cert.Wirelength.wrap (x1 (ix2 t k)) := by
  rw [val_main_v7_apply, eq_ix2_of_val (idx_main_v7 (takeIdx (ix2 t k))) t k rfl rfl, val_main_v6_apply, val_main_v3_apply,
    val_main_v5_apply, val_main_v2_apply, val_main_v4_apply, val_main_c_apply, val_main_c_0_apply]
  rfl

/-- The same for the y gather. -/
theorem v14_at (x1 : (⟨S4000000x2, .i32⟩ : BufTy).Contents (Elt Ideal)) (t : Fin 4000000) (k : Fin 2) :
    val_main_v14 (F := Ideal) x1 (takeIdx (ix2 t k)) = Cert.Wirelength.wrap (x1 (ix2 t k)) := by
  rw [val_main_v14_apply, eq_ix2_of_val (idx_main_v14 (takeIdx (ix2 t k))) t k rfl rfl, val_main_v13_apply, val_main_v10_apply,
    val_main_v12_apply, val_main_v9_apply, val_main_v11_apply, val_main_c_1_apply, val_main_c_2_apply]
  rfl

/-- Entry `(t, k)` of the x gather is the x coordinate of the pin that entry `(t, k)` of the pin array addresses. -/
theorem v8_at (x0 : (⟨S10000000, .f32⟩ : BufTy).Contents (Elt Ideal)) (x1 : (⟨S4000000x2, .i32⟩ : BufTy).Contents (Elt Ideal))
    (t : Fin 4000000) (k : Fin 2) :
    val_main_v8 (F := Ideal) x0 x1 (ix2 t k) = x0 (Cert.Wirelength.xAt (Cert.Wirelength.pin (x1 (ix2 t k)))) := by
  unfold val_main_v8
  show Host.gather (takeDims 5000000 4000000 2 gather_S5000000_S4000000x2x1_S4000000x2_n_0_n_n_0_2_1_wf)
    (val_main_v0 (F := Ideal) x0) (val_main_v7 (F := Ideal) x1) (ix2 t k) = _
  rw [gather_take_apply (by decide), val_main_v0_apply]
  refine congrArg x0 (eq_ix1_of_val _ _ ?_)
  show min (BitVec.toInt (val_main_v7 (F := Ideal) x1 (takeIdx (ix2 t k)))).toNat (5000000 - 1) = _
  rw [v7_at]
  rfl

/-- Entry `(t, k)` of the y gather is the y coordinate of that pin: the second half of the position array. -/
theorem v15_at (x0 : (⟨S10000000, .f32⟩ : BufTy).Contents (Elt Ideal)) (x1 : (⟨S4000000x2, .i32⟩ : BufTy).Contents (Elt Ideal))
    (t : Fin 4000000) (k : Fin 2) :
    val_main_v15 (F := Ideal) x0 x1 (ix2 t k) = x0 (Cert.Wirelength.yAt (Cert.Wirelength.pin (x1 (ix2 t k)))) := by
  unfold val_main_v15
  show Host.gather (takeDims 5000000 4000000 2 gather_S5000000_S4000000x2x1_S4000000x2_n_0_n_n_0_2_1_wf)
    (val_main_v1 (F := Ideal) x0) (val_main_v14 (F := Ideal) x1) (ix2 t k) = _
  rw [gather_take_apply (by decide), val_main_v1_apply]
  refine congrArg x0 (eq_ix1_of_val _ _ ?_)
  show 5000000 + min (BitVec.toInt (val_main_v14 (F := Ideal) x1 (takeIdx (ix2 t k)))).toNat (5000000 - 1) = _
  rw [v14_at]
  rfl

/-! ## One net, and the total -/

/-- Net `t`'s entry of the weighted array is its cost. -/
theorem v59_at (x0 : (⟨S10000000, .f32⟩ : BufTy).Contents (Elt Ideal)) (x1 : (⟨S4000000x2, .i32⟩ : BufTy).Contents (Elt Ideal))
    (x2 : (⟨S4000000, .f32⟩ : BufTy).Contents (Elt Ideal)) (t : Fin 4000000) :
    val_main_v59 (F := Ideal) x0 x1 x2 (ix1 t) = Cert.Wirelength.cost sharp x0 x1 x2 t := by
  rw [val_main_v59_apply, val_main_v58_apply, v36_at, v57_at, v8_at, v8_at, v15_at, v15_at]
  rfl

/-- The reference program's result is the total cost over all nets. -/
theorem ref_total (x0 : (⟨S10000000, .f32⟩ : BufTy).Contents (Elt Ideal)) (x1 : (⟨S4000000x2, .i32⟩ : BufTy).Contents (Elt Ideal))
    (x2 : (⟨S4000000, .f32⟩ : BufTy).Contents (Elt Ideal)) (i : S_.Idx) :
    Cert.ReferenceIdeal.Read.val_main_v60 (F := Ideal) x0 x1 x2 i
      = Cert.Wirelength.total (Ideal.ofBits .f32 0x40000000#32) x0 x1 x2 := by
  rw [val_main_v60_apply, val_main_cst_16_apply]
  show Ideal.ofBits .f32 0x00000000#32 + _ = _
  rw [Ideal.ofBits_zero_f32, zero_add, Cert.LibTileSums.sum_idx1]
  exact Finset.sum_congr rfl fun t _ => v59_at x0 x1 x2 t

end Cert.ReferenceIdeal.RefTotal

end
-- ==== Proof.lean ====
/-
  The kernel and its reference compute the same wirelength.

  A net joins two pins; its cost is its weight times the sum, over the x and the y axis, of the smooth extent of its two
  pins' coordinates (an exp-weighted average leaning to the larger coordinate minus one leaning to the smaller). Both
  programs return the sum of the costs of all 4000000 nets.

  The reference forms the costs of all nets as arrays and sums them once. The kernel extends the per-net data by 194304
  entries of weight zero, lays it out as 4096 rows of 1024, has each of eight grid points sum the costs of one band of 512
  rows and write that band total into all 1024 entries of its block of the result, and lets the host add up every entry
  and divide by 1024. Read at the extended reals, where a change of format is the identity and every operation is exact:

    * each program's result is the sum over the nets of the same cost function of the same entries of the arguments
      (the modules on the specification, on the reference's total, and on the kernel's bands, layout and total);
    * regrouping a sum by bands, dropping summands that are zero, and taking 1024 copies of a sum divided by 1024 leave
      it unchanged on the extended reals, infinities included, so the finiteness of the inputs is never used.

  The three frames are the generated ones (the reference's is its run with the result dropped), and the idealization
  rewrote no operation, so nothing is owed for it.
-/
import proofs.«173383_j90091234001231_2_alg».proof.Defs
import proofs.«173383_j90091234001231_2_alg».proof.Proof.Gen.Kernel
import proofs.«173383_j90091234001231_2_alg».proof.Proof.Gen.Kernel.Skeleton
import proofs.«173383_j90091234001231_2_alg».proof.Proof.Gen.Kernel.Launch
import proofs.«173383_j90091234001231_2_alg».proof.Proof.Gen.Kernel.Points
import proofs.«173383_j90091234001231_2_alg».proof.Proof.Gen.Kernel.Frame
import proofs.«173383_j90091234001231_2_alg».proof.Proof.Gen.KernelIdeal
import proofs.«173383_j90091234001231_2_alg».proof.Proof.Gen.KernelIdeal.Skeleton
import proofs.«173383_j90091234001231_2_alg».proof.Proof.Gen.KernelIdeal.Launch
import proofs.«173383_j90091234001231_2_alg».proof.Proof.Gen.KernelIdeal.Points
import proofs.«173383_j90091234001231_2_alg».proof.Proof.Gen.KernelIdeal.Frame
import proofs.«173383_j90091234001231_2_alg».proof.Proof.Gen.ReferenceIdeal
import proofs.«173383_j90091234001231_2_alg».proof.Proof.Gen.Pre_finite_inputs
import proofs.«173383_j90091234001231_2_alg».proof.Proof.Gen.ReferenceIdeal.Run
import proofs.«173383_j90091234001231_2_alg».proof.Proof.Gen.ReferenceIdeal.Read
import proofs.«173383_j90091234001231_2_alg».proof.Proof.Total
import proofs.«173383_j90091234001231_2_alg».proof.Proof.RefTotal
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the total cost of all nets in their result. -/
theorem algebraic : Cert.algebraic_KernelIdeal_ReferenceIdeal := by
  intro m ρ m' ρ' _ hagree
  refine ⟨fun c => fun _ => Cert.Wirelength.total (Ideal.ofBits .f32 0x40000000#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, (hagree c).1, (hagree c).2.1, (hagree c).2.2.1]
  funext i
  exact Cert.ReferenceIdeal.RefTotal.ref_total _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
